-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x16 : Shape := ⟨2, ![524288, 16]⟩
abbrev S16x128 : Shape := ⟨2, ![16, 128]⟩
abbrev S1x128 : Shape := ⟨2, ![1, 128]⟩
abbrev S128x128 : Shape := ⟨2, ![128, 128]⟩
abbrev S_ : Shape := ⟨0, ![]⟩

class Facts : Prop where
  bcast_S_S524288x16 : S_.BroadcastsInDim S524288x16 (![] : Fin 0 → Fin S524288x16.rank)
  reducesTo_S524288x16_S_d0_1 : S524288x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S524288x16 .f32) (main_arg1 : FVec F S16x128 .f32) (main_arg2 : FVec F S1x128 .f32) (main_arg3 : FVec F S128x128 .f32) (main_arg4 : FVec F S1x128 .f32) : IVec S_ 1 :=
  let main_v0 : FVec F S524288x16 .f32 := Host.absf main_arg0
  let main_cst : FVec F S_ .f32 := constant S_ .f32 0x7F800000#32
  let main_v1 : FVec F S524288x16 .f32 := broadcastInDim S524288x16 ![] bcast_S_S524288x16 main_cst
  let main_v2 : IVec S524288x16 1 := cmpf .olt main_v0 main_v1
  let main_c : IVec S_ 1 := constantI S_ 1 1#1
  let main_v3 : IVec S_ 1 := (fun x v => Host.reduce IntOp.andi x v reducesTo_S524288x16_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S524288x16 : Shape := ⟨2, ![524288, 16]⟩
abbrev S16x128 : Shape := ⟨2, ![16, 128]⟩
abbrev S1x128 : Shape := ⟨2, ![1, 128]⟩
abbrev S128x128 : Shape := ⟨2, ![128, 128]⟩
abbrev S65536x128 : Shape := ⟨2, ![65536, 128]⟩
abbrev S128x4 : Shape := ⟨2, ![128, 4]⟩
abbrev S8x8 : Shape := ⟨2, ![8, 8]⟩
abbrev S_ : Shape := ⟨0, ![]⟩
abbrev S8x1x8x1 : Shape := ⟨4, ![8, 1, 8, 1]⟩
abbrev S1x16x1x128 : Shape := ⟨4, ![1, 16, 1, 128]⟩
abbrev S8x16x8x128 : Shape := ⟨4, ![8, 16, 8, 128]⟩
abbrev S128x1024 : Shape := ⟨2, ![128, 1024]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S1x128x1x4 : Shape := ⟨4, ![1, 128, 1, 4]⟩
abbrev S8x128x8x4 : Shape := ⟨4, ![8, 128, 8, 4]⟩
abbrev S1024x32 : Shape := ⟨2, ![1024, 32]⟩
abbrev S1x4 : Shape := ⟨2, ![1, 4]⟩
abbrev S1x1x1x4 : Shape := ⟨4, ![1, 1, 1, 4]⟩
abbrev S1x1x8x4 : Shape := ⟨4, ![1, 1, 8, 4]⟩
abbrev S1x32 : Shape := ⟨2, ![1, 32]⟩
abbrev S65536x32 : Shape := ⟨2, ![65536, 32]⟩
abbrev S4096x128 : Shape := ⟨2, ![4096, 128]⟩
abbrev S4096x32 : Shape := ⟨2, ![4096, 32]⟩
abbrev S4096x1024 : Shape := ⟨2, ![4096, 1024]⟩
abbrev S524288x4 : Shape := ⟨2, ![524288, 4]⟩

abbrev nBuf : Space → Nat
  | .hbm => 35
  | .vmem => 8
  | .smem => 0
  | _ => 0

abbrev bufTy : (tb : Table) → Fin (tcTables nBuf tb) → BufTy
  | .hbm, ⟨0, _⟩ => ⟨S524288x16, .f32⟩
  | .hbm, ⟨1, _⟩ => ⟨S16x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S65536x128, .f32⟩
  | .hbm, ⟨6, _⟩ => ⟨S128x4, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x1x8x1, .f32⟩
  | .hbm, ⟨15, _⟩ => ⟨S1x16x1x128, .f32⟩
  | .hbm, ⟨16, _⟩ => ⟨S8x16x8x128, .f32⟩
  | .hbm, ⟨17, _⟩ => ⟨S8x16x8x128, .f32⟩
  | .hbm, ⟨18, _⟩ => ⟨S8x16x8x128, .f32⟩
  | .hbm, ⟨19, _⟩ => ⟨S128x1024, .f32⟩
  | .hbm, ⟨20, _⟩ => ⟨S1x1x1x128, .f32⟩
  | .hbm, ⟨21, _⟩ => ⟨S1x1x8x128, .f32⟩
  | .hbm, ⟨22, _⟩ => ⟨S1x1024, .f32⟩
  | .hbm, ⟨23, _⟩ => ⟨S8x1x8x1, .f32⟩
  | .hbm, ⟨24, _⟩ => ⟨S1x128x1x4, .f32⟩
  | .hbm, ⟨25, _⟩ => ⟨S8x128x8x4, .f32⟩
  | .hbm, ⟨26, _⟩ => ⟨S8x128x8x4, .f32⟩
  | .hbm, ⟨27, _⟩ => ⟨S8x128x8x4, .f32⟩
  | .hbm, ⟨28, _⟩ => ⟨S1024x32, .f32⟩
  | .hbm, ⟨29, _⟩ => ⟨S1x4, .f32⟩
  | .hbm, ⟨30, _⟩ => ⟨S1x1x1x4, .f32⟩
  | .hbm, ⟨31, _⟩ => ⟨S1x1x8x4, .f32⟩
  | .hbm, ⟨32, _⟩ => ⟨S1x32, .f32⟩
  | .hbm, ⟨33, _⟩ => ⟨S65536x32, .f32⟩
  | .hbm, ⟨34, _⟩ => ⟨S524288x4, .f32⟩
  | .local _ .vmem, ⟨0, _⟩ => ⟨S4096x128, .f32⟩
  | .local _ .vmem, ⟨1, _⟩ => ⟨S4096x128, .f32⟩
  | .local _ .vmem, ⟨2, _⟩ => ⟨S128x1024, .f32⟩
  | .local _ .vmem, ⟨3, _⟩ => ⟨S1x1024, .f32⟩
  | .local _ .vmem, ⟨4, _⟩ => ⟨S1024x32, .f32⟩
  | .local _ .vmem, ⟨5, _⟩ => ⟨S1x32, .f32⟩
  | .local _ .vmem, ⟨6, _⟩ => ⟨S4096x32, .f32⟩
  | .local _ .vmem, ⟨7, _⟩ => ⟨S4096x32, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S524288x16_S65536x128 : S524288x16.ShapeCasts S65536x128
  slices_S128x128_S128x4_0_0 : S128x128.Slices ![0, 0] S128x4
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x128_S1x16x1x128_1_3 : S16x128.BroadcastsInDim S1x16x1x128 (![1, 3] : Fin 2 → Fin S1x16x1x128.rank)
  bcast_S8x1x8x1_S8x16x8x128_0_1_2_3 : S8x1x8x1.BroadcastsInDim S8x16x8x128 (![0, 1, 2, 3] : Fin 4 → Fin S8x16x8x128.rank)
  bcast_S1x16x1x128_S8x16x8x128_0_1_2_3 : S1x16x1x128.BroadcastsInDim S8x16x8x128 (![0, 1, 2, 3] : Fin 4 → Fin S8x16x8x128.rank)
  shapeCasts_S8x16x8x128_S128x1024 : S8x16x8x128.ShapeCasts S128x1024
  shapeCasts_S1x128_S1x1x1x128 : S1x128.ShapeCasts S1x1x1x128
  bcast_S1x1x1x128_S1x1x8x128_0_1_2_3 : S1x1x1x128.BroadcastsInDim S1x1x8x128 (![0, 1, 2, 3] : Fin 4 → Fin S1x1x8x128.rank)
  shapeCasts_S1x1x8x128_S1x1024 : S1x1x8x128.ShapeCasts S1x1024
  bcast_S128x4_S1x128x1x4_1_3 : S128x4.BroadcastsInDim S1x128x1x4 (![1, 3] : Fin 2 → Fin S1x128x1x4.rank)
  bcast_S8x1x8x1_S8x128x8x4_0_1_2_3 : S8x1x8x1.BroadcastsInDim S8x128x8x4 (![0, 1, 2, 3] : Fin 4 → Fin S8x128x8x4.rank)
  bcast_S1x128x1x4_S8x128x8x4_0_1_2_3 : S1x128x1x4.BroadcastsInDim S8x128x8x4 (![0, 1, 2, 3] : Fin 4 → Fin S8x128x8x4.rank)
  shapeCasts_S8x128x8x4_S1024x32 : S8x128x8x4.ShapeCasts S1024x32
  slices_S1x128_S1x4_0_0 : S1x128.Slices ![0, 0] S1x4
  shapeCasts_S1x4_S1x1x1x4 : S1x4.ShapeCasts S1x1x1x4
  bcast_S1x1x1x4_S1x1x8x4_0_1_2_3 : S1x1x1x4.BroadcastsInDim S1x1x8x4 (![0, 1, 2, 3] : Fin 4 → Fin S1x1x8x4.rank)
  shapeCasts_S1x1x8x4_S1x32 : S1x1x8x4.ShapeCasts S1x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  broadcasts_S1x1024_S4096x1024 : S1x1024.Broadcasts S4096x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  shapeCasts_S65536x32_S524288x4 : S65536x32.ShapeCasts S524288x4
  dot_S4096x128_S128x1024_S4096x1024_1_0_0_1_n_n_wf : DotDims.WF S4096x128 S128x1024 S4096x1024 [1] [0] [0] [1] [] []
  dot_S4096x1024_S1024x32_S4096x32_1_0_0_1_n_n_wf : DotDims.WF S4096x1024 S1024x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S65536x32.size a
  hwx0_5 : ∀ i : grid0.Coords, EltTy.bits .f32 = 32 ∨ (Rect.block (s := S65536x32) S4096x32.size (cc0_transform_5 i) (hinb0_5 i)).WholeWords (EltTy.packing .f32)

variable [Facts₀]

def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def dot_S4096x1024_S1024x32_S4096x32_1_0_0_1_n_n : DotDims S4096x1024 S1024x32 S4096x32 where
  lhsContracting := [1]
  rhsContracting := [0]
  lhsNonContracting := [0]
  rhsNonContracting := [1]
  lhsBatch := []
  rhsBatch := []
  wf := dot_S4096x1024_S1024x32_S4096x32_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x16 : Shape := ⟨2, ![524288, 16]⟩
abbrev S16x128 : Shape := ⟨2, ![16, 128]⟩
abbrev S1x128 : Shape := ⟨2, ![1, 128]⟩
abbrev S128x128 : Shape := ⟨2, ![128, 128]⟩
abbrev S524288x128 : Shape := ⟨2, ![524288, 128]⟩
abbrev S1024x16 : Shape := ⟨2, ![1024, 16]⟩
abbrev S1024x128 : Shape := ⟨2, ![1024, 128]⟩
abbrev S524288x4 : Shape := ⟨2, ![524288, 4]⟩

abbrev nBuf : Space → Nat
  | .hbm => 7
  | .vmem => 8
  | .smem => 0
  | _ => 0

abbrev bufTy : (tb : Table) → Fin (tcTables nBuf tb) → BufTy
  | .hbm, ⟨0, _⟩ => ⟨S524288x16, .f32⟩
  | .hbm, ⟨1, _⟩ => ⟨S16x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S524288x128, .f32⟩
  | .hbm, ⟨6, _⟩ => ⟨S524288x4, .f32⟩
  | .local _ .vmem, ⟨0, _⟩ => ⟨S1024x16, .f32⟩
  | .local _ .vmem, ⟨1, _⟩ => ⟨S1024x16, .f32⟩
  | .local _ .vmem, ⟨2, _⟩ => ⟨S16x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  slices_S524288x128_S524288x4_0_0 : S524288x128.Slices ![0, 0] S524288x4
  dot_S1024x16_S16x128_S1024x128_1_0_0_1_n_n_wf : DotDims.WF S1024x16 S16x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S524288x16.size a
  hwx0_0 : ∀ i : grid0.Coords, EltTy.bits .f32 = 32 ∨ (Rect.block (s := S524288x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S524288x128.size a
  hwx0_5 : ∀ i : grid0.Coords, EltTy.bits .f32 = 32 ∨ (Rect.block (s := S524288x128) S1024x128.size (cc0_transform_5 i) (hinb0_5 i)).WholeWords (EltTy.packing .f32)

variable [Facts₀]

def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KerBody.lean ====
/-
  The packed kernel's body at one entry of its output block.

  The body loads a tile of 4096 packed rows (128 lanes: eight batch rows of 16 features), the expanded first-layer
  weights [128, 1024] and bias [1, 1024], the expanded second-layer weights [1024, 32] and bias [1, 32], and stores
    relu(x · w1 + b1) · w2 + b2.
  Read at row `p` and column `q` of the tile this is Σ_d max(Σ_a x[p, a] · w1[a, d] + b1[0, d], 0) · w2[d, q] + b2[0, q]:
  the casts of a block to its own shape do nothing, each matrix product into the zero accumulator is a plain sum over
  the contracted axis, each bias is one row repeated down the tile, and the literal the maximum is taken against is zero.
-/
import proofs.«141977_g2000704750272886_pallasbulk_1114_4_alg».proof.Proof.Gen.KernelIdeal.Skeleton
import proofs.«141977_g2000704750272886_pallasbulk_1114_4_alg».proof.Proof.LibMatmulIx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The stored tile at `(p, q)`, as the two-layer formula over the loaded blocks. -/
theorem pay_apply (x0 : Vec Ideal S4096x128 .f32) (x1 : Vec Ideal S128x1024 .f32) (x2 : Vec Ideal S1x1024 .f32)
    (x3 : Vec Ideal S1024x32 .f32) (x4 : Vec Ideal S1x32 .f32) (p : Fin 4096) (q : Fin 32) :
    k0_pay1 (F := Ideal) x0 x1 x2 x3 x4 (ix2 p q)
      = (∑ d : Fin 1024, max ((∑ a : Fin 128, x0 (ix2 p a) * x1 (ix2 a d)) + x2 (ix2 (0 : Fin 1) d)) 0 * x3 (ix2 d q))
        + x4 (ix2 (0 : Fin 1) q) := by
  have hb1 : ∀ (v : Vec Ideal S1x1024 .f32) (p' : Fin 4096) (k : Fin 1024),
      broadcastTo S4096x1024 v broadcasts_S1x1024_S4096x1024 (ix2 p' k) = v (ix2 (0 : Fin 1) k) :=
    fun v p' k => broadcastTo_1b_ab_apply v _ p' k
  have hb2 : ∀ (v : Vec Ideal S1x32 .f32) (p' : Fin 4096) (k : Fin 32),
      broadcastTo S4096x32 v broadcasts_S1x32_S4096x32 (ix2 p' k) = v (ix2 (0 : Fin 1) k) :=
    fun v p' k => broadcastTo_1b_ab_apply v _ p' k
  have h1 : ∀ (p' : Fin 4096) (k : Fin 1024),
      matmul (φ₁ := .f32) (φ₂ := .f32) dot_S4096x128_S128x1024_S4096x1024_1_0_0_1_n_n none x0 x1
          (constant (F := Ideal) S4096x1024 .f32 0x00000000#32) (ix2 p' k)
        = ∑ a : Fin 128, x0 (ix2 p' a) * x1 (ix2 a k) :=
    fun p' k => MatmulIx.matmul_zero_ix2 (φ₁ := .f32) (φ₂ := .f32) dot_S4096x128_S128x1024_S4096x1024_1_0_0_1_n_n rfl rfl
      (fun _ _ => rfl) (fun _ _ => rfl) (fun _ _ => rfl) (fun _ _ => rfl) none x0 x1 p' k
  unfold k0_pay1
  rw [shapeCast_self x0, shapeCast_self x1, shapeCast_self x3, shapeCast_self x4]
  rw [addf_apply, hb2, MatmulIx.matmul_zero_ix2 (φ₁ := .f32) (φ₂ := .f32) dot_S4096x1024_S1024x32_S4096x32_1_0_0_1_n_n rfl rfl
    (fun _ _ => rfl) (fun _ _ => rfl) (fun _ _ => rfl) (fun _ _ => rfl) none _ x3 p q]
  refine congrArg (· + x4 (ix2 (0 : Fin 1) q)) (Finset.sum_congr rfl fun k _ => ?_)
  rw [maximumf_apply, addf_apply, h1, hb1, broadcast_apply]
  show max _ (Ideal.ofBits .f32 0x00000000#32) * _ = _
  rw [Ideal.ofBits_zero_f32]

end Cert.KernelIdeal.Body

end
-- ==== Proof.Spec.lean ====
/-
  The function both programs compute, and the one law that joins their two arrangements.

  A two-layer perceptron on a batch: for batch row `b` and output column `j`,
    out[b, j] = Σ_k relu(Σ_a x[b, a] · w1[a, k] + b1[0, k]) · w2[k, j] + b2[0, j],
  with sixteen inputs, 128 hidden units, and the first four of 128 output columns kept.

  One program computes exactly this, tile by tile. The other packs eight batch rows into one row of 128 lanes and
  multiplies by block-diagonal weights (the Kronecker product of the 8 × 8 identity with the weights): a sum over the
  128 (or 1024) packed lanes in which every term outside the diagonal block has a zero factor. `sum_blockdiag` says
  such a sum is the sum over the one surviving block; it uses only that zero times anything is zero and that finite
  sums may be regrouped, so it needs no finiteness of the entries.
-/
import Idealize.ShloMosaic.Lib.ValueIdx
import Idealize.ShloMosaic.PureOps.Ideal.Laws

namespace Cert.Mlp

open Idealize.ShloMosaic Idealize.ShloMosaic.ValueIdx

/-- A rank-two array read at natural-number coordinates (zero outside the array; never read there below). -/
noncomputable def rd {A B : ℕ} (X : (⟨2, ![A, B]⟩ : Shape).Idx → EReal) (a b : ℕ) : EReal :=
  if h : a < A ∧ b < B then X (ix2 ⟨a, h.1⟩ ⟨b, h.2⟩) else 0

/-- At coordinates inside the array, `rd` is the entry. -/
theorem rd_eq {A B : ℕ} (X : (⟨2, ![A, B]⟩ : Shape).Idx → EReal) (p : Fin A) (q : Fin B) (a b : ℕ)
    (ha : a = p.val) (hb : b = q.val) : rd X a b = X (ix2 p q) := by
  subst ha hb
  unfold rd
  rw [dif_pos ⟨p.isLt, q.isLt⟩]

/-- The entry read at an index is `rd` at the index's coordinates. -/
theorem eq_rd {A B : ℕ} (X : (⟨2, ![A, B]⟩ : Shape).Idx → EReal) (i : (⟨2, ![A, B]⟩ : Shape).Idx) (a b : ℕ)
    (ha : a = (i 0).val) (hb : b = (i 1).val) : X i = rd X a b := by
  rw [rd_eq X (i 0) (i 1) a b ha hb]
  exact congrArg X (eq_ix2 i)

/-- The entries of the identity matrix, as numbers. -/
noncomputable def eye (r r' : ℕ) : EReal := if r = r' then 1 else 0

theorem eye_self (r : ℕ) : eye r r = 1 := if_pos rfl
theorem eye_ne {r r' : ℕ} (h : r ≠ r') : eye r r' = 0 := if_neg h

/-- Hidden unit `k` of batch row `b`. -/
noncomputable def hidden (x : (⟨2, ![524288, 16]⟩ : Shape).Idx → EReal) (w1 : (⟨2, ![16, 128]⟩ : Shape).Idx → EReal)
    (b1 : (⟨2, ![1, 128]⟩ : Shape).Idx → EReal) (b k : ℕ) : EReal :=
  max ((∑ a : Fin 16, rd x b a.val * rd w1 a.val k) + rd b1 0 k) 0

/-- Output column `j` of batch row `b`, over all 128 columns of the second layer. -/
noncomputable def logit (x : (⟨2, ![524288, 16]⟩ : Shape).Idx → EReal) (w1 : (⟨2, ![16, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (b j : ℕ) : EReal :=
  (∑ k : Fin 128, hidden x w1 b1 b k.val * rd w2 k.val j) + rd b2 0 j

/-- The result: the first four output columns of every batch row. -/
noncomputable def G (x : (⟨2, ![524288, 16]⟩ : Shape).Idx → EReal) (w1 : (⟨2, ![16, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![524288, 4]⟩ : Shape).Idx → EReal :=
  fun i => logit x w1 b1 w2 b2 (i 0).val (i 1).val

/-- A sum over `R · n` lanes whose terms vanish outside block `r'` (lanes `r' · n … r' · n + n - 1`) is the sum
    over that block. -/
theorem sum_blockdiag (R n N : ℕ) (hN : N = R * n) (f : Fin N → EReal) (r' : Fin R) (g : Fin n → EReal)
    (hin : ∀ (c : Fin N) (i : Fin n), c.val = r'.val * n + i.val → f c = g i)
    (hout : ∀ c : Fin N, c.val / n ≠ r'.val → f c = 0) :
    ∑ c, f c = ∑ i, g i := by
  subst hN
  rw [← Equiv.sum_comp finProdFinEquiv f, Fintype.sum_prod_type]
  rw [Finset.sum_eq_single r']
  · refine Finset.sum_congr rfl fun i _ => hin _ i ?_
    show i.val + n * r'.val = r'.val * n + i.val
    rw [Nat.mul_comm]; omega
  · intro r _ hr
    refine Finset.sum_eq_zero fun i _ => hout _ ?_
    show (i.val + n * r.val) / n ≠ r'.val
    have hn : 0 < n := Nat.lt_of_le_of_lt (Nat.zero_le _) i.isLt
    rw [Nat.add_mul_div_left _ _ hn, Nat.div_eq_of_lt i.isLt, Nat.zero_add]
    exact fun h => hr (Fin.ext h)
  · intro h; exact absurd (Finset.mem_univ _) h

end Cert.Mlp
-- ==== Proof.KerArrays.lean ====
/-
  The arrays the packed kernel's region is launched on, read at an index.

  Before the region the program builds: the packed view of the input (eight batch rows per row of 128 lanes: a
  row-major re-reading of the same numbers), the 8 × 8 identity matrix (an entry is one where its row and column
  coordinates are equal, zero elsewhere), and the two biases repeated eight times (a row of 128, or of the first 4,
  entries broadcast over a new axis of 8 and re-read as one row of 1024, or of 32). Each is read here at an index,
  as the entry of an argument it is.
-/
import proofs.«141977_g2000704750272886_pallasbulk_1114_4_alg».proof.Proof.Gen.KernelIdeal.Frame
import proofs.«141977_g2000704750272886_pallasbulk_1114_4_alg».proof.Proof.Spec
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The identity matrix -/

/-- The 8 × 8 identity as the program builds it: the row coordinate (plus zero) compared with the column coordinate,
    the bit read as a number. -/
def eyeF : S8x8.Idx → EReal :=
  uitofp (F := Ideal) .f32 (cmpi .eq (addi (iotaInDim S8x8 32 0) (broadcastInDim S8x8 ![] bcast_S_S8x8 (constantI S_ 32 0#32)))
    (iotaInDim S8x8 32 1))

/-- The comparison's bit, over the 64 entries. -/
theorem eye_word : ∀ r r' : Fin 8, IntOp.cmpi .eq (IntOp.addi (BitVec.ofNat 32 r.val) 0#32) (BitVec.ofNat 32 r'.val)
    = if r.val = r'.val then 1#1 else 0#1 := by decide

/-- Its entries are the identity's. -/
theorem eyeF_apply (r r' : Fin 8) : eyeF (ix2 r r') = Mlp.eye r.val r'.val := by
  have hw := eye_word r r'
  show (((IntOp.cmpi .eq (IntOp.addi (BitVec.ofNat 32 r.val) 0#32) (BitVec.ofNat 32 r'.val)).toNat : ℝ) : EReal) = _
  rw [hw]
  unfold Mlp.eye
  split <;> simp

/-! ## The input, packed -/

/-- The packed view of the input is the input re-read row-major. -/
theorem v0_eq (c : Dev nD) : (V m c main_v0 : S65536x128.Idx → EReal)
    = shapeCast S65536x128 (m ((c : Thread nD τ).loc main_arg0) : S524288x16.Idx → EReal) shapeCasts_S524288x16_S65536x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- Lane `a` of packed row `P` is feature `a % 16` of batch row `8 P + a / 16`. -/
theorem v0_apply (c : Dev nD) (P : Fin 65536) (a : Fin 128) :
    (V m c main_v0 : S65536x128.Idx → EReal) (ix2 P a)
      = Mlp.rd (m ((c : Thread nD τ).loc main_arg0) : S524288x16.Idx → EReal) (8 * P.val + a.val / 16) (a.val % 16) := by
  rw [v0_eq]
  have ha : a.val < 128 := a.isLt
  have hP : P.val < 65536 := P.isLt
  refine (shapeCast_apply _ shapeCasts_S524288x16_S65536x128 (ix2 P a)
    (ix2 (⟨8 * P.val + a.val / 16, by omega⟩ : Fin 524288) (⟨a.val % 16, by omega⟩ : Fin 16)) ?_).trans ?_
  · rw [Shape.rowMajor_val_two, Shape.rowMajor_val_two]
    show (8 * P.val + a.val / 16) * 16 + a.val % 16 = P.val * 128 + a.val
    omega
  · exact (Mlp.rd_eq _ _ _ _ _ rfl rfl).symm

/-! ## The first layer's bias, eight times -/

theorem v11_eq (c : Dev nD) : (V m c main_v11 : S1x1024.Idx → EReal)
    = shapeCast S1x1024 (broadcastInDim S1x1x8x128 ![0, 1, 2, 3] bcast_S1x1x1x128_S1x1x8x128_0_1_2_3
        (shapeCast S1x1x1x128 (m ((c : Thread nD τ).loc main_arg2) : S1x128.Idx → EReal) shapeCasts_S1x128_S1x1x1x128))
        shapeCasts_S1x1x8x128_S1x1024 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- Lane `d` of the expanded bias is entry `d % 128` of the bias. -/
theorem v11_apply (c : Dev nD) (d : Fin 1024) :
    (V m c main_v11 : S1x1024.Idx → EReal) (ix2 (0 : Fin 1) d)
      = Mlp.rd (m ((c : Thread nD τ).loc main_arg2) : S1x128.Idx → EReal) 0 (d.val % 128) := by
  rw [v11_eq]
  have hd : d.val < 1024 := d.isLt
  refine (shapeCast_apply _ shapeCasts_S1x1x8x128_S1x1024 (ix2 (0 : Fin 1) d)
    (ix4 (0 : Fin 1) (0 : Fin 1) (⟨d.val / 128, by omega⟩ : Fin 8) (⟨d.val % 128, by omega⟩ : Fin 128)) ?_).trans ?_
  · rw [Shape.rowMajor_val_four, Shape.rowMajor_val_two]
    show ((0 * 1 + 0) * 8 + d.val / 128) * 128 + d.val % 128 = 0 * 1024 + d.val
    omega
  refine (broadcastInDim_apply _ bcast_S1x1x1x128_S1x1x8x128_0_1_2_3 _ _
    (ix4 (0 : Fin 1) (0 : Fin 1) (0 : Fin 1) (⟨d.val % 128, by omega⟩ : Fin 128)) fun a => ?_).trans ?_
  · match a with
    | ⟨0, _⟩ => rfl
    | ⟨1, _⟩ => rfl
    | ⟨2, _⟩ => rfl
    | ⟨3, _⟩ => rfl
  refine (shapeCast_apply _ shapeCasts_S1x128_S1x1x1x128 _ (ix2 (0 : Fin 1) (⟨d.val % 128, by omega⟩ : Fin 128)) ?_).trans ?_
  · rw [Shape.rowMajor_val_four, Shape.rowMajor_val_two]
    show 0 * 128 + d.val % 128 = ((0 * 1 + 0) * 1 + 0) * 128 + d.val % 128
    omega
  · exact (Mlp.rd_eq _ _ _ _ _ rfl rfl).symm

/-! ## The second layer's bias (its first four entries), eight times -/

theorem v16_eq (c : Dev nD) : (V m c main_v16 : S1x32.Idx → EReal)
    = shapeCast S1x32 (broadcastInDim S1x1x8x4 ![0, 1, 2, 3] bcast_S1x1x1x4_S1x1x8x4_0_1_2_3
        (shapeCast S1x1x1x4 (extractStridedSlice S1x4 ![0, 0] (m ((c : Thread nD τ).loc main_arg4) : S1x128.Idx → EReal)
          slices_S1x128_S1x4_0_0) shapeCasts_S1x4_S1x1x1x4)) shapeCasts_S1x1x8x4_S1x32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- Lane `q` of the expanded bias is entry `q % 4` of the bias. -/
theorem v16_apply (c : Dev nD) (q : Fin 32) :
    (V m c main_v16 : S1x32.Idx → EReal) (ix2 (0 : Fin 1) q)
      = Mlp.rd (m ((c : Thread nD τ).loc main_arg4) : S1x128.Idx → EReal) 0 (q.val % 4) := by
  rw [v16_eq]
  have hq : q.val < 32 := q.isLt
  refine (shapeCast_apply _ shapeCasts_S1x1x8x4_S1x32 (ix2 (0 : Fin 1) q)
    (ix4 (0 : Fin 1) (0 : Fin 1) (⟨q.val / 4, by omega⟩ : Fin 8) (⟨q.val % 4, by omega⟩ : Fin 4)) ?_).trans ?_
  · rw [Shape.rowMajor_val_four, Shape.rowMajor_val_two]
    show ((0 * 1 + 0) * 8 + q.val / 4) * 4 + q.val % 4 = 0 * 32 + q.val
    omega
  refine (broadcastInDim_apply _ bcast_S1x1x1x4_S1x1x8x4_0_1_2_3 _ _
    (ix4 (0 : Fin 1) (0 : Fin 1) (0 : Fin 1) (⟨q.val % 4, by omega⟩ : Fin 4)) fun a => ?_).trans ?_
  · match a with
    | ⟨0, _⟩ => rfl
    | ⟨1, _⟩ => rfl
    | ⟨2, _⟩ => rfl
    | ⟨3, _⟩ => rfl
  refine (shapeCast_apply _ shapeCasts_S1x4_S1x1x1x4 _ (ix2 (0 : Fin 1) (⟨q.val % 4, by omega⟩ : Fin 4)) ?_).trans ?_
  · rw [Shape.rowMajor_val_four, Shape.rowMajor_val_two]
    show 0 * 4 + q.val % 4 = ((0 * 1 + 0) * 1 + 0) * 4 + q.val % 4
    omega
  refine (extractStridedSlice_apply ![0, 0] _ slices_S1x128_S1x4_0_0 _
    (ix2 (0 : Fin 1) (⟨q.val % 4, by omega⟩ : Fin 128)) fun a => ?_).trans ?_
  · match a with
    | ⟨0, _⟩ => rfl
    | ⟨1, _⟩ => show q.val % 4 = 0 + q.val % 4; omega
  · exact (Mlp.rd_eq _ _ _ _ _ rfl rfl).symm

end Cert.KernelIdeal.Arrays

end
-- ==== Proof.KerKron.lean ====
/-
  The expanded weights the packed kernel's region is launched on, read at an index.

  Each layer's weights are expanded by a Kronecker product with the 8 × 8 identity: the identity's entry `(r, r')`
  and the weights' entry `(i, k)` are each broadcast over the other's two axes to a rank-four array indexed
  `(r, i, r', k)`, multiplied entry by entry, and the product re-read row-major as a matrix with rows `(r, i)` and
  columns `(r', k)`. So entry `(a, d)` of the first layer's expanded weights is
  `eye (a / 16) (d / 128) · w1[a % 16, d % 128]`, and entry `(d, q)` of the second layer's (built from the first four
  columns of its weights) is `eye (d / 128) (q / 4) · w2[d % 128, q % 4]`.
-/
import proofs.«141977_g2000704750272886_pallasbulk_1114_4_alg».proof.Proof.KerArrays

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The first layer's weights, expanded -/

/-- The Kronecker product of the identity with the first layer's weights, as the program builds it. -/
def kron1 (w1 : S16x128.Idx → EReal) : S128x1024.Idx → EReal :=
  shapeCast S128x1024
    (mulf (F := Ideal) (φ := .f32)
      (broadcastInDim S8x16x8x128 ![0, 1, 2, 3] bcast_S8x1x8x1_S8x16x8x128_0_1_2_3
        (broadcastInDim S8x1x8x1 ![0, 2] bcast_S8x8_S8x1x8x1_0_2 eyeF))
      (broadcastInDim S8x16x8x128 ![0, 1, 2, 3] bcast_S1x16x1x128_S8x16x8x128_0_1_2_3
        (broadcastInDim S1x16x1x128 ![1, 3] bcast_S16x128_S1x16x1x128_1_3 w1)))
    shapeCasts_S8x16x8x128_S128x1024

theorem v8_eq (c : Dev nD) : (V m c main_v8 : S128x1024.Idx → EReal)
    = kron1 (m ((c : Thread nD τ).loc main_arg1) : S16x128.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem kron1_apply (w1 : S16x128.Idx → EReal) (a : Fin 128) (d : Fin 1024) :
    kron1 w1 (ix2 a d) = Mlp.eye (a.val / 16) (d.val / 128) * Mlp.rd w1 (a.val % 16) (d.val % 128) := by
  have ha : a.val < 128 := a.isLt
  have hd : d.val < 1024 := d.isLt
  unfold kron1
  refine (shapeCast_apply _ shapeCasts_S8x16x8x128_S128x1024 (ix2 a d)
    (ix4 (⟨a.val / 16, by omega⟩ : Fin 8) (⟨a.val % 16, by omega⟩ : Fin 16) (⟨d.val / 128, by omega⟩ : Fin 8)
      (⟨d.val % 128, by omega⟩ : Fin 128)) ?_).trans ?_
  · rw [Shape.rowMajor_val_four, Shape.rowMajor_val_two]
    show (((a.val / 16) * 16 + a.val % 16) * 8 + d.val / 128) * 128 + d.val % 128 = a.val * 1024 + d.val
    omega
  rw [mulf_apply]
  have hl : broadcastInDim S8x16x8x128 ![0, 1, 2, 3] bcast_S8x1x8x1_S8x16x8x128_0_1_2_3
        (broadcastInDim S8x1x8x1 ![0, 2] bcast_S8x8_S8x1x8x1_0_2 eyeF)
        (ix4 (⟨a.val / 16, by omega⟩ : Fin 8) (⟨a.val % 16, by omega⟩ : Fin 16) (⟨d.val / 128, by omega⟩ : Fin 8)
          (⟨d.val % 128, by omega⟩ : Fin 128))
      = Mlp.eye (a.val / 16) (d.val / 128) := by
    refine (broadcastInDim_apply _ bcast_S8x1x8x1_S8x16x8x128_0_1_2_3 _ _
      (ix4 (⟨a.val / 16, by omega⟩ : Fin 8) (0 : Fin 1) (⟨d.val / 128, by omega⟩ : Fin 8) (0 : Fin 1)) fun ax => ?_).trans ?_
    · match ax with
      | ⟨0, _⟩ => rfl
      | ⟨1, _⟩ => rfl
      | ⟨2, _⟩ => rfl
      | ⟨3, _⟩ => rfl
    refine (broadcastInDim_apply _ bcast_S8x8_S8x1x8x1_0_2 _ _
      (ix2 (⟨a.val / 16, by omega⟩ : Fin 8) (⟨d.val / 128, by omega⟩ : Fin 8)) fun ax => ?_).trans ?_
    · match ax with
      | ⟨0, _⟩ => rfl
      | ⟨1, _⟩ => rfl
    · exact eyeF_apply _ _
  have hr : broadcastInDim S8x16x8x128 ![0, 1, 2, 3] bcast_S1x16x1x128_S8x16x8x128_0_1_2_3
        (broadcastInDim S1x16x1x128 ![1, 3] bcast_S16x128_S1x16x1x128_1_3 w1)
        (ix4 (⟨a.val / 16, by omega⟩ : Fin 8) (⟨a.val % 16, by omega⟩ : Fin 16) (⟨d.val / 128, by omega⟩ : Fin 8)
          (⟨d.val % 128, by omega⟩ : Fin 128))
      = Mlp.rd w1 (a.val % 16) (d.val % 128) := by
    refine (broadcastInDim_apply _ bcast_S1x16x1x128_S8x16x8x128_0_1_2_3 _ _
      (ix4 (0 : Fin 1) (⟨a.val % 16, by omega⟩ : Fin 16) (0 : Fin 1) (⟨d.val % 128, by omega⟩ : Fin 128)) fun ax => ?_).trans ?_
    · match ax with
      | ⟨0, _⟩ => rfl
      | ⟨1, _⟩ => rfl
      | ⟨2, _⟩ => rfl
      | ⟨3, _⟩ => rfl
    refine (broadcastInDim_apply _ bcast_S16x128_S1x16x1x128_1_3 _ _
      (ix2 (⟨a.val % 16, by omega⟩ : Fin 16) (⟨d.val % 128, by omega⟩ : Fin 128)) fun ax => ?_).trans ?_
    · match ax with
      | ⟨0, _⟩ => rfl
      | ⟨1, _⟩ => rfl
    · exact (Mlp.rd_eq _ _ _ _ _ rfl rfl).symm
  rw [hl, hr]

/-- Entry `(a, d)` of the first layer's expanded weights. -/
theorem v8_apply (c : Dev nD) (a : Fin 128) (d : Fin 1024) :
    (V m c main_v8 : S128x1024.Idx → EReal) (ix2 a d)
      = Mlp.eye (a.val / 16) (d.val / 128) * Mlp.rd (m ((c : Thread nD τ).loc main_arg1) : S16x128.Idx → EReal) (a.val % 16) (d.val % 128) := by
  rw [v8_eq]; exact kron1_apply _ a d

/-! ## The second layer's weights (their first four columns), expanded -/

/-- The Kronecker product of the identity with the first four columns of the second layer's weights. -/
def kron2 (w2 : S128x128.Idx → EReal) : S1024x32.Idx → EReal :=
  shapeCast S1024x32
    (mulf (F := Ideal) (φ := .f32)
      (broadcastInDim S8x128x8x4 ![0, 1, 2, 3] bcast_S8x1x8x1_S8x128x8x4_0_1_2_3
        (broadcastInDim S8x1x8x1 ![0, 2] bcast_S8x8_S8x1x8x1_0_2 eyeF))
      (broadcastInDim S8x128x8x4 ![0, 1, 2, 3] bcast_S1x128x1x4_S8x128x8x4_0_1_2_3
        (broadcastInDim S1x128x1x4 ![1, 3] bcast_S128x4_S1x128x1x4_1_3
          (extractStridedSlice S128x4 ![0, 0] w2 slices_S128x128_S128x4_0_0))))
    shapeCasts_S8x128x8x4_S1024x32

theorem v12_eq (c : Dev nD) : (V m c main_v12 : S1024x32.Idx → EReal)
    = kron2 (m ((c : Thread nD τ).loc main_arg3) : S128x128.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem kron2_apply (w2 : S128x128.Idx → EReal) (d : Fin 1024) (q : Fin 32) :
    kron2 w2 (ix2 d q) = Mlp.eye (d.val / 128) (q.val / 4) * Mlp.rd w2 (d.val % 128) (q.val % 4) := by
  have hd : d.val < 1024 := d.isLt
  have hq : q.val < 32 := q.isLt
  unfold kron2
  refine (shapeCast_apply _ shapeCasts_S8x128x8x4_S1024x32 (ix2 d q)
    (ix4 (⟨d.val / 128, by omega⟩ : Fin 8) (⟨d.val % 128, by omega⟩ : Fin 128) (⟨q.val / 4, by omega⟩ : Fin 8)
      (⟨q.val % 4, by omega⟩ : Fin 4)) ?_).trans ?_
  · rw [Shape.rowMajor_val_four, Shape.rowMajor_val_two]
    show (((d.val / 128) * 128 + d.val % 128) * 8 + q.val / 4) * 4 + q.val % 4 = d.val * 32 + q.val
    omega
  rw [mulf_apply]
  have hl : broadcastInDim S8x128x8x4 ![0, 1, 2, 3] bcast_S8x1x8x1_S8x128x8x4_0_1_2_3
        (broadcastInDim S8x1x8x1 ![0, 2] bcast_S8x8_S8x1x8x1_0_2 eyeF)
        (ix4 (⟨d.val / 128, by omega⟩ : Fin 8) (⟨d.val % 128, by omega⟩ : Fin 128) (⟨q.val / 4, by omega⟩ : Fin 8)
          (⟨q.val % 4, by omega⟩ : Fin 4))
      = Mlp.eye (d.val / 128) (q.val / 4) := by
    refine (broadcastInDim_apply _ bcast_S8x1x8x1_S8x128x8x4_0_1_2_3 _ _
      (ix4 (⟨d.val / 128, by omega⟩ : Fin 8) (0 : Fin 1) (⟨q.val / 4, by omega⟩ : Fin 8) (0 : Fin 1)) fun ax => ?_).trans ?_
    · match ax with
      | ⟨0, _⟩ => rfl
      | ⟨1, _⟩ => rfl
      | ⟨2, _⟩ => rfl
      | ⟨3, _⟩ => rfl
    refine (broadcastInDim_apply _ bcast_S8x8_S8x1x8x1_0_2 _ _
      (ix2 (⟨d.val / 128, by omega⟩ : Fin 8) (⟨q.val / 4, by omega⟩ : Fin 8)) fun ax => ?_).trans ?_
    · match ax with
      | ⟨0, _⟩ => rfl
      | ⟨1, _⟩ => rfl
    · exact eyeF_apply _ _
  have hr : broadcastInDim S8x128x8x4 ![0, 1, 2, 3] bcast_S1x128x1x4_S8x128x8x4_0_1_2_3
        (broadcastInDim S1x128x1x4 ![1, 3] bcast_S128x4_S1x128x1x4_1_3
          (extractStridedSlice S128x4 ![0, 0] w2 slices_S128x128_S128x4_0_0))
        (ix4 (⟨d.val / 128, by omega⟩ : Fin 8) (⟨d.val % 128, by omega⟩ : Fin 128) (⟨q.val / 4, by omega⟩ : Fin 8)
          (⟨q.val % 4, by omega⟩ : Fin 4))
      = Mlp.rd w2 (d.val % 128) (q.val % 4) := by
    refine (broadcastInDim_apply _ bcast_S1x128x1x4_S8x128x8x4_0_1_2_3 _ _
      (ix4 (0 : Fin 1) (⟨d.val % 128, by omega⟩ : Fin 128) (0 : Fin 1) (⟨q.val % 4, by omega⟩ : Fin 4)) fun ax => ?_).trans ?_
    · match ax with
      | ⟨0, _⟩ => rfl
      | ⟨1, _⟩ => rfl
      | ⟨2, _⟩ => rfl
      | ⟨3, _⟩ => rfl
    refine (broadcastInDim_apply _ bcast_S128x4_S1x128x1x4_1_3 _ _
      (ix2 (⟨d.val % 128, by omega⟩ : Fin 128) (⟨q.val % 4, by omega⟩ : Fin 4)) fun ax => ?_).trans ?_
    · match ax with
      | ⟨0, _⟩ => rfl
      | ⟨1, _⟩ => rfl
    refine (extractStridedSlice_apply ![0, 0] _ slices_S128x128_S128x4_0_0 _
      (ix2 (⟨d.val % 128, by omega⟩ : Fin 128) (⟨q.val % 4, by omega⟩ : Fin 128)) fun ax => ?_).trans ?_
    · match ax with
      | ⟨0, _⟩ => show d.val % 128 = 0 + d.val % 128; omega
      | ⟨1, _⟩ => show q.val % 4 = 0 + q.val % 4; omega
    · exact (Mlp.rd_eq _ _ _ _ _ rfl rfl).symm
  rw [hl, hr]

/-- Entry `(d, q)` of the second layer's expanded weights. -/
theorem v12_apply (c : Dev nD) (d : Fin 1024) (q : Fin 32) :
    (V m c main_v12 : S1024x32.Idx → EReal) (ix2 d q)
      = Mlp.eye (d.val / 128) (q.val / 4) * Mlp.rd (m ((c : Thread nD τ).loc main_arg3) : S128x128.Idx → EReal) (d.val % 128) (q.val % 4) := by
  rw [v12_eq]; exact kron2_apply _ d q

end Cert.KernelIdeal.Arrays

end
-- ==== Proof.Packed.lean ====
/-
  The packed arrangement computes the same perceptron.

  Eight batch rows are packed into one row of 128 lanes: lane `a` of packed row `P` is feature `a % 16` of batch row
  `8 P + a / 16`. The first layer's weights are expanded to [128, 1024] with entry `(a, d)` equal to
  `eye (a / 16) (d / 128) · w1[a % 16, d % 128]`, its bias to [1, 1024] with entry `d` equal to `b1[0, d % 128]`; the
  second layer's weights to [1024, 32] with entry `(d, q)` equal to `eye (d / 128) (q / 4) · w2[d % 128, q % 4]`, its
  bias to [1, 32] with entry `q` equal to `b2[0, q % 4]`. So hidden lane `d` of packed row `P` sums, over the 128 lanes,
  terms that vanish unless the lane belongs to sub-row `d / 128`: it is hidden unit `d % 128` of batch row
  `8 P + d / 128`. Likewise output lane `q` is output column `q % 4` of batch row `8 P + q / 4`.
-/
import proofs.«141977_g2000704750272886_pallasbulk_1114_4_alg».proof.Proof.Spec

namespace Cert.Mlp

open Idealize.ShloMosaic Idealize.ShloMosaic.ValueIdx

variable (x : (⟨2, ![524288, 16]⟩ : Shape).Idx → EReal) (w1 : (⟨2, ![16, 128]⟩ : Shape).Idx → EReal)
  (b1 : (⟨2, ![1, 128]⟩ : Shape).Idx → EReal) (w2 : (⟨2, ![128, 128]⟩ : Shape).Idx → EReal)
  (b2 : (⟨2, ![1, 128]⟩ : Shape).Idx → EReal)

/-- Hidden lane `d` of the packed row whose first batch row is `B`. -/
theorem hidden_packed (B d : ℕ) (hd : d < 1024) :
    max ((∑ a : Fin 128, rd x (B + a.val / 16) (a.val % 16) * (eye (a.val / 16) (d / 128) * rd w1 (a.val % 16) (d % 128)))
        + rd b1 0 (d % 128)) 0
      = hidden x w1 b1 (B + d / 128) (d % 128) := by
  have hs : (∑ a : Fin 128, rd x (B + a.val / 16) (a.val % 16) * (eye (a.val / 16) (d / 128) * rd w1 (a.val % 16) (d % 128)))
      = ∑ i : Fin 16, rd x (B + d / 128) i.val * rd w1 i.val (d % 128) := by
    refine sum_blockdiag 8 16 128 rfl _ ⟨d / 128, by omega⟩ _ (fun a i h => ?_) (fun a h => ?_)
    · have h0 : a.val = d / 128 * 16 + i.val := h
      have hi : i.val < 16 := i.isLt
      have h1 : a.val / 16 = d / 128 := by omega
      have h2 : a.val % 16 = i.val := by omega
      rw [h1, h2, eye_self, one_mul]
    · have h0 : a.val / 16 ≠ d / 128 := h
      rw [eye_ne h0, zero_mul, mul_zero]
  unfold hidden
  rw [hs]

/-- Output lane `q` of the packed row whose first batch row is `B`. -/
theorem logit_packed (B q : ℕ) (hq : q < 32) :
    (∑ d : Fin 1024,
        max ((∑ a : Fin 128, rd x (B + a.val / 16) (a.val % 16) * (eye (a.val / 16) (d.val / 128) * rd w1 (a.val % 16) (d.val % 128)))
          + rd b1 0 (d.val % 128)) 0 * (eye (d.val / 128) (q / 4) * rd w2 (d.val % 128) (q % 4)))
        + rd b2 0 (q % 4)
      = logit x w1 b1 w2 b2 (B + q / 4) (q % 4) := by
  have hs : (∑ d : Fin 1024,
        max ((∑ a : Fin 128, rd x (B + a.val / 16) (a.val % 16) * (eye (a.val / 16) (d.val / 128) * rd w1 (a.val % 16) (d.val % 128)))
          + rd b1 0 (d.val % 128)) 0 * (eye (d.val / 128) (q / 4) * rd w2 (d.val % 128) (q % 4)))
      = ∑ k : Fin 128, hidden x w1 b1 (B + q / 4) k.val * rd w2 k.val (q % 4) := by
    refine sum_blockdiag 8 128 1024 rfl _ ⟨q / 4, by omega⟩ _ (fun d k h => ?_) (fun d h => ?_)
    · have h0 : d.val = q / 4 * 128 + k.val := h
      have hk : k.val < 128 := k.isLt
      have h1 : d.val / 128 = q / 4 := by omega
      have h2 : d.val % 128 = k.val := by omega
      rw [hidden_packed x w1 b1 B d.val d.isLt, h1, h2, eye_self, one_mul]
    · have h0 : d.val / 128 ≠ q / 4 := h
      rw [eye_ne h0, zero_mul, mul_zero]
  unfold logit
  rw [hs]

end Cert.Mlp
-- ==== Proof.KerValue.lean ====
/-
  The packed kernel's result as a function of its arguments.

  The grid has 16 points; point `t` handles packed rows `4096 t … 4096 t + 4095` (batch rows `32768 t …`): its input
  tile is those rows of the packed input, the expanded weights and biases are whole at every point, and its output
  tile is those rows of a [65536, 32] array. What point `t` writes back is rows `4096 t …` of ONE function of the
  arguments, `packed`: lane `q` of packed row `P` is output column `q % 4` of batch row `8 P + q / 4` (the block-diagonal
  sums, `Mlp.logit_packed`). The tiles cover the array, so after the run the array is `packed`; and the program's
  result re-reads it row-major with four columns, which puts batch row `b`, column `j` at packed row `b / 8`, lane
  `4 (b % 8) + j`: it is `Mlp.G`.
-/
import proofs.«141977_g2000704750272886_pallasbulk_1114_4_alg».proof.Proof.Gen.KernelIdeal.Frame
import proofs.«141977_g2000704750272886_pallasbulk_1114_4_alg».proof.Proof.KerBody
import proofs.«141977_g2000704750272886_pallasbulk_1114_4_alg».proof.Proof.KerKron
import proofs.«141977_g2000704750272886_pallasbulk_1114_4_alg».proof.Proof.Packed
import Idealize.ShloMosaic.Lib.Pipeline.Value
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The packed result: lane `q` of packed row `P` is output column `q % 4` of batch row `8 P + q / 4`. -/
def packed (x : S524288x16.Idx → EReal) (w1 : S16x128.Idx → EReal) (b1 : S1x128.Idx → EReal) (w2 : S128x128.Idx → EReal)
    (b2 : S1x128.Idx → EReal) : S65536x32.Idx → EReal :=
  fun i => Mlp.logit x w1 b1 w2 b2 (8 * (i 0).val + (i 1).val / 4) ((i 1).val % 4)

/-- Where the blocks sit: the packed-row tiles move with the point, everything else stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 16 := by have h : cfg0.N = 16 := N_0; have := t.isLt; omega

/-- The input tile at point `t`: packed rows `4096 t + p`. -/
theorem iblk0 (c : Dev nD) (t : Fin cfg0.N) (p : Fin 4096) (a : Fin 128) :
    iblk m c 0 t (ix2 p a)
      = Mlp.rd (m ((c : Thread nD τ).loc main_arg0) : S524288x16.Idx → EReal) (8 * (t.val * 4096 + p.val) + a.val / 16) (a.val % 16) := by
  obtain ⟨e0, e1, -⟩ := idx_facts t
  have ht := t_lt t
  have hp : p.val < 4096 := p.isLt
  show (V m c main_v0 : S65536x128.Idx → EReal) (((cfg0.win 0).blk t).view.emb (ix2 p a)) = _
  have he : ((cfg0.win 0).blk t).view.emb (ix2 p a) = ix2 (⟨t.val * 4096 + p.val, by omega⟩ : Fin 65536) a := by
    funext ax; apply Fin.ext
    match ax with
    | ⟨0, _⟩ => show win0_0.index t (0 : Fin 2) * 4096 + 1 * p.val = t.val * 4096 + p.val; omega
    | ⟨1, _⟩ => show win0_0.index t (1 : Fin 2) * 128 + 1 * a.val = a.val; omega
  exact (congrArg (V m c main_v0 : S65536x128.Idx → EReal) he).trans (Arrays.v0_apply m c _ a)

theorem iblk1 (c : Dev nD) (t : Fin cfg0.N) (a : Fin 128) (d : Fin 1024) :
    iblk m c 1 t (ix2 a d)
      = Mlp.eye (a.val / 16) (d.val / 128) * Mlp.rd (m ((c : Thread nD τ).loc main_arg1) : S16x128.Idx → EReal) (a.val % 16) (d.val % 128) := by
  obtain ⟨-, -, e0, e1, -⟩ := idx_facts t
  show (V m c main_v8 : S128x1024.Idx → EReal) (((cfg0.win 1).blk t).view.emb (ix2 a d)) = _
  have he : ((cfg0.win 1).blk t).view.emb (ix2 a d) = ix2 a d := by
    funext ax; apply Fin.ext
    match ax with
    | ⟨0, _⟩ => show win0_1.index t (0 : Fin 2) * 128 + 1 * a.val = a.val; omega
    | ⟨1, _⟩ => show win0_1.index t (1 : Fin 2) * 1024 + 1 * d.val = d.val; omega
  exact (congrArg (V m c main_v8 : S128x1024.Idx → EReal) he).trans (Arrays.v8_apply m c a d)

theorem iblk2 (c : Dev nD) (t : Fin cfg0.N) (d : Fin 1024) :
    iblk m c 2 t (ix2 (0 : Fin 1) d) = Mlp.rd (m ((c : Thread nD τ).loc main_arg2) : S1x128.Idx → EReal) 0 (d.val % 128) := by
  obtain ⟨-, -, -, -, e0, e1, -⟩ := idx_facts t
  show (V m c main_v11 : S1x1024.Idx → EReal) (((cfg0.win 2).blk t).view.emb (ix2 (0 : Fin 1) d)) = _
  have he : ((cfg0.win 2).blk t).view.emb (ix2 (0 : Fin 1) d) = ix2 (0 : Fin 1) d := by
    funext ax; apply Fin.ext
    match ax with
    | ⟨0, _⟩ => show win0_2.index t (0 : Fin 2) * 1 + 1 * 0 = 0; omega
    | ⟨1, _⟩ => show win0_2.index t (1 : Fin 2) * 1024 + 1 * d.val = d.val; omega
  exact (congrArg (V m c main_v11 : S1x1024.Idx → EReal) he).trans (Arrays.v11_apply m c d)

theorem iblk3 (c : Dev nD) (t : Fin cfg0.N) (d : Fin 1024) (q : Fin 32) :
    iblk m c 3 t (ix2 d q)
      = Mlp.eye (d.val / 128) (q.val / 4) * Mlp.rd (m ((c : Thread nD τ).loc main_arg3) : S128x128.Idx → EReal) (d.val % 128) (q.val % 4) := by
  obtain ⟨-, -, -, -, -, -, e0, e1, -⟩ := idx_facts t
  show (V m c main_v12 : S1024x32.Idx → EReal) (((cfg0.win 3).blk t).view.emb (ix2 d q)) = _
  have he : ((cfg0.win 3).blk t).view.emb (ix2 d q) = ix2 d q := by
    funext ax; apply Fin.ext
    match ax with
    | ⟨0, _⟩ => show win0_3.index t (0 : Fin 2) * 1024 + 1 * d.val = d.val; omega
    | ⟨1, _⟩ => show win0_3.index t (1 : Fin 2) * 32 + 1 * q.val = q.val; omega
  exact (congrArg (V m c main_v12 : S1024x32.Idx → EReal) he).trans (Arrays.v12_apply m c d q)

theorem iblk4 (c : Dev nD) (t : Fin cfg0.N) (q : Fin 32) :
    iblk m c 4 t (ix2 (0 : Fin 1) q) = Mlp.rd (m ((c : Thread nD τ).loc main_arg4) : S1x128.Idx → EReal) 0 (q.val % 4) := by
  obtain ⟨-, -, -, -, -, -, -, -, e0, e1, -⟩ := idx_facts t
  show (V m c main_v16 : S1x32.Idx → EReal) (((cfg0.win 4).blk t).view.emb (ix2 (0 : Fin 1) q)) = _
  have he : ((cfg0.win 4).blk t).view.emb (ix2 (0 : Fin 1) q) = ix2 (0 : Fin 1) q := by
    funext ax; apply Fin.ext
    match ax with
    | ⟨0, _⟩ => show win0_4.index t (0 : Fin 2) * 1 + 1 * 0 = 0; omega
    | ⟨1, _⟩ => show win0_4.index t (1 : Fin 2) * 32 + 1 * q.val = q.val; omega
  exact (congrArg (V m c main_v16 : S1x32.Idx → EReal) he).trans (Arrays.v16_apply m c q)

/-- What point `t` writes back is its tile of `packed` of the arguments. -/
theorem flushed_eq (c : Dev nD) (t : Fin cfg0.N) :
    (dats m 0 c).flushed 5 t = ((cfg0.win 5).blk t).view.read (Elt Ideal)
      (packed (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz]
  simp only [View.ld_unit_zero (S := S4096x128) hz, View.ld_unit_zero (S := S128x1024) hz, View.ld_unit_zero (S := S1x1024) hz,
    View.ld_unit_zero (S := S1024x32) hz, View.ld_unit_zero (S := S1x32) hz]
  funext j
  obtain ⟨p, q, rfl⟩ : ∃ (p : Fin 4096) (q : Fin 32), j = ix2 p q := ⟨j 0, j 1, eq_ix2 j⟩
  obtain ⟨-, -, -, -, -, -, -, -, -, -, e0, e1⟩ := idx_facts t
  refine (Body.pay_apply (iblk m c 0 t) (iblk m c 1 t) (iblk m c 2 t) (iblk m c 3 t) (iblk m c 4 t) p q).trans ?_
  simp only [iblk0, iblk1, iblk2, iblk3, iblk4]
  refine (Mlp.logit_packed _ _ _ _ _ (8 * (t.val * 4096 + p.val)) q.val q.isLt).trans ?_
  show _ = Mlp.logit _ _ _ _ _ (8 * (win0_5.index t (0 : Fin 2) * 4096 + 1 * p.val) + (win0_5.index t (1 : Fin 2) * 32 + 1 * q.val) / 4)
    ((win0_5.index t (1 : Fin 2) * 32 + 1 * q.val) % 4)
  rw [show win0_5.index t (0 : Fin 2) * 4096 + 1 * p.val = t.val * 4096 + p.val by omega,
    show win0_5.index t (1 : Fin 2) * 32 + 1 * q.val = q.val by omega]

/-- An index of the array is in point `t`'s tile iff each coordinate is in the tile's range. -/
theorem mem_blk (t : Fin cfg0.N) (i : S65536x32.Idx) :
    i ∈ ((cfg0.win 5).blk t).view.set ↔ ∀ a : Fin 2, win0_5.index t a * S4096x32.size a ≤ (i a).val
      ∧ (i a).val < win0_5.index t a * S4096x32.size a + S4096x32.size a := by
  show i ∈ ((View.whole main_v17).slice (win0_5.rect t)).set ↔ _
  rw [View.set_slice_whole, Rect.mem_set_unit]
  exact Iff.rfl

/-- Every index is in the tile of the point its packed row falls in. -/
theorem cover (i : S65536x32.Idx) : ∃ t : Fin cfg0.N, (cfg0.win 5).flush t = true ∧ i ∈ ((cfg0.win 5).blk t).view.set := by
  have hi0 : (i 0).val < 65536 := (i 0).isLt
  have hi1 : (i 1).val < 32 := (i 1).isLt
  have hN : cfg0.N = 16 := N_0
  let t : Fin cfg0.N := ⟨(i 0).val / 4096, by rw [hN]; omega⟩
  obtain ⟨-, -, -, -, -, -, -, -, -, -, e0, e1⟩ := idx_facts t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 32 ≤ (i 1).val ∧ (i 1).val < win0_5.index t (1 : Fin 2) * 32 + 32; omega

/-- The array after the run is `packed` of the arguments. -/
theorem final (c : Dev nD) : (dats m 0 c).arrAt 5 cfg0.N
    = packed (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The program's result, the packed array re-read with four columns, is `Mlp.G` of the arguments. -/
theorem result (c : Dev nD) : Pipeline.afterTail₀ cfgs (dats m) 0 (V0 m) [hostOps1] c main_v18
    = Mlp.G (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v18) = _
  after_results
  have e := (Pipeline.withArrays_arr spec0 launch0.win.arr_inj c (V0 m c) (fun w => (dats m 0 c).arrAt w cfg0.N) 5).trans (final m c)
  show shapeCast S524288x4
    (Pipeline.withArrays spec0 c (V0 m c) (fun w => (dats m 0 c).arrAt w cfg0.N) (Proc.devRef .tc (Pipeline.arrRef spec0 5)))
    shapeCasts_S65536x32_S524288x4 = _
  rw [e]
  funext i
  have hi0 : (i 0).val < 524288 := (i 0).isLt
  have hi1 : (i 1).val < 4 := (i 1).isLt
  refine (shapeCast_apply _ shapeCasts_S65536x32_S524288x4 i
    (ix2 (⟨(i 0).val / 8, by omega⟩ : Fin 65536) (⟨(i 0).val % 8 * 4 + (i 1).val, by omega⟩ : Fin 32)) ?_).trans ?_
  · rw [Shape.rowMajor_val_two, Shape.rowMajor_val_two]
    show (i 0).val / 8 * 32 + ((i 0).val % 8 * 4 + (i 1).val) = (i 0).val * 4 + (i 1).val
    omega
  · show Mlp.logit _ _ _ _ _ (8 * ((i 0).val / 8) + ((i 0).val % 8 * 4 + (i 1).val) / 4) (((i 0).val % 8 * 4 + (i 1).val) % 4)
      = Mlp.logit _ _ _ _ _ (i 0).val (i 1).val
    rw [show 8 * ((i 0).val / 8) + ((i 0).val % 8 * 4 + (i 1).val) / 4 = (i 0).val by omega,
      show ((i 0).val % 8 * 4 + (i 1).val) % 4 = (i 1).val by omega]

/-- The run with its result named: every weakly fair execution ends with the result at `Mlp.G` of the arguments and the
    arguments unchanged. -/
theorem run : θ_run defs (onTc (τ := τ) (main (F := Ideal))) ⟨m, fun _ => 0, ρ⟩ fun r => ∀ c : Dev nD,
      r.2.mem ((c : Thread nD τ).loc main_v18)
        = Mlp.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v18 (Pipeline.mem_restRefs_of main_v18 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.RefBody.lean ====
/-
  The reference's kernel body at one entry of its output block.

  The body loads a tile of 1024 batch rows (16 features each), the first layer's weights [16, 128] and bias [1, 128],
  the second layer's weights [128, 128] and bias [1, 128], and stores
    relu(x · w1 + b1) · w2 + b2.
  Read at row `p` and column `q` of the tile this is Σ_k max(Σ_a x[p, a] · w1[a, k] + b1[0, k], 0) · w2[k, q] + b2[0, q]:
  each matrix product into the zero accumulator is a plain sum over the contracted axis, each bias is one row repeated
  down the tile, and the literal the maximum is taken against is zero.
-/
import proofs.«141977_g2000704750272886_pallasbulk_1114_4_alg».proof.Proof.Gen.ReferenceIdeal.Skeleton
import proofs.«141977_g2000704750272886_pallasbulk_1114_4_alg».proof.Proof.LibMatmulIx
import Idealize.ShloMosaic.Lib.ValueLayout

noncomputable section

namespace Cert.ReferenceIdeal.Body

open Cert.ReferenceIdeal Cert.ReferenceIdeal.Gen Idealize.ShloMosaic Idealize.ShloMosaic.ValueIdx

/-- The stored tile at `(p, q)`, as the two-layer formula over the loaded blocks. -/
theorem pay_apply (x0 : Vec Ideal S1024x16 .f32) (x1 : Vec Ideal S16x128 .f32) (x2 : Vec Ideal S1x128 .f32)
    (x3 : Vec Ideal S128x128 .f32) (x4 : Vec Ideal S1x128 .f32) (p : Fin 1024) (q : Fin 128) :
    k0_pay1 (F := Ideal) x0 x1 x2 x3 x4 (ix2 p q)
      = (∑ k : Fin 128, max ((∑ a : Fin 16, x0 (ix2 p a) * x1 (ix2 a k)) + x2 (ix2 (0 : Fin 1) k)) 0 * x3 (ix2 k q))
        + x4 (ix2 (0 : Fin 1) q) := by
  have hb : ∀ (v : Vec Ideal S1x128 .f32) (p' : Fin 1024) (k : Fin 128),
      broadcastTo S1024x128 v broadcasts_S1x128_S1024x128 (ix2 p' k) = v (ix2 (0 : Fin 1) k) :=
    fun v p' k => broadcastTo_1b_ab_apply v _ p' k
  have h1 : ∀ (p' : Fin 1024) (k : Fin 128),
      matmul (φ₁ := .f32) (φ₂ := .f32) dot_S1024x16_S16x128_S1024x128_1_0_0_1_n_n none x0 x1 (constant (F := Ideal) S1024x128 .f32 0x00000000#32) (ix2 p' k)
        = ∑ a : Fin 16, x0 (ix2 p' a) * x1 (ix2 a k) :=
    fun p' k => MatmulIx.matmul_zero_ix2 (φ₁ := .f32) (φ₂ := .f32) dot_S1024x16_S16x128_S1024x128_1_0_0_1_n_n rfl rfl (fun _ _ => rfl) (fun _ _ => rfl)
      (fun _ _ => rfl) (fun _ _ => rfl) none x0 x1 p' k
  unfold k0_pay1
  rw [addf_apply, hb, MatmulIx.matmul_zero_ix2 (φ₁ := .f32) (φ₂ := .f32) dot_S1024x128_S128x128_S1024x128_1_0_0_1_n_n rfl rfl (fun _ _ => rfl)
    (fun _ _ => rfl) (fun _ _ => rfl) (fun _ _ => rfl) none _ x3 p q]
  refine congrArg (· + x4 (ix2 (0 : Fin 1) q)) (Finset.sum_congr rfl fun k _ => ?_)
  rw [maximumf_apply, addf_apply, h1, hb, broadcast_apply]
  show max _ (Ideal.ofBits .f32 0x00000000#32) * _ = _
  rw [Ideal.ofBits_zero_f32]

end Cert.ReferenceIdeal.Body

end
-- ==== Proof.RefValue.lean ====
/-
  The reference program's result as a function of its arguments.

  The grid has 512 points; point `t` handles batch rows `1024 t … 1024 t + 1023`: its input tile is those rows of `x`,
  the weights and biases are whole at every point, and its output tile is those rows of a [524288, 128] array. So
  what point `t` writes back is rows `1024 t …` of ONE function of the arguments, `full` (all 128 output columns of
  every batch row); the tiles cover the array, so after the run the array is `full`; and the program's result is its
  first four columns, which is `Mlp.G`.
-/
import proofs.«141977_g2000704750272886_pallasbulk_1114_4_alg».proof.Proof.Gen.ReferenceIdeal.Frame
import proofs.«141977_g2000704750272886_pallasbulk_1114_4_alg».proof.Proof.RefBody
import proofs.«141977_g2000704750272886_pallasbulk_1114_4_alg».proof.Proof.Spec
import Idealize.ShloMosaic.Lib.Pipeline.Value
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- All 128 output columns of every batch row, as one array. -/
def full (x : S524288x16.Idx → EReal) (w1 : S16x128.Idx → EReal) (b1 : S1x128.Idx → EReal) (w2 : S128x128.Idx → EReal)
    (b2 : S1x128.Idx → EReal) : S524288x128.Idx → EReal :=
  fun i => Mlp.logit x w1 b1 w2 b2 (i 0).val (i 1).val

/-- Where the blocks sit: the batch tiles move with the point, everything else stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input tile at point `t`: rows `1024 t + p` of `x`. -/
theorem iblk0 (c : Dev nD) (t : Fin cfg0.N) (p : Fin 1024) (a : Fin 16) :
    iblk m c 0 t (ix2 p a) = Mlp.rd (V m c main_arg0 : S524288x16.Idx → EReal) (t.val * 1024 + p.val) a.val := by
  obtain ⟨e0, e1, -⟩ := idx_facts t
  show (V m c main_arg0 : S524288x16.Idx → EReal) (((cfg0.win 0).blk t).view.emb (ix2 p a)) = _
  refine Mlp.eq_rd _ _ _ _ ?_ ?_
  · show t.val * 1024 + p.val = win0_0.index t (0 : Fin 2) * 1024 + 1 * p.val; omega
  · show a.val = win0_0.index t (1 : Fin 2) * 16 + 1 * a.val; omega

theorem iblk1 (c : Dev nD) (t : Fin cfg0.N) (a : Fin 16) (k : Fin 128) :
    iblk m c 1 t (ix2 a k) = Mlp.rd (V m c main_arg1 : S16x128.Idx → EReal) a.val k.val := by
  obtain ⟨-, -, e0, e1, -⟩ := idx_facts t
  show (V m c main_arg1 : S16x128.Idx → EReal) (((cfg0.win 1).blk t).view.emb (ix2 a k)) = _
  refine Mlp.eq_rd _ _ _ _ ?_ ?_
  · show a.val = win0_1.index t (0 : Fin 2) * 16 + 1 * a.val; omega
  · show k.val = win0_1.index t (1 : Fin 2) * 128 + 1 * k.val; omega

theorem iblk2 (c : Dev nD) (t : Fin cfg0.N) (k : Fin 128) :
    iblk m c 2 t (ix2 (0 : Fin 1) k) = Mlp.rd (V m c main_arg2 : S1x128.Idx → EReal) 0 k.val := by
  obtain ⟨-, -, -, -, e0, e1, -⟩ := idx_facts t
  show (V m c main_arg2 : S1x128.Idx → EReal) (((cfg0.win 2).blk t).view.emb (ix2 (0 : Fin 1) k)) = _
  refine Mlp.eq_rd _ _ _ _ ?_ ?_
  · show 0 = win0_2.index t (0 : Fin 2) * 1 + 1 * 0; omega
  · show k.val = win0_2.index t (1 : Fin 2) * 128 + 1 * k.val; omega

theorem iblk3 (c : Dev nD) (t : Fin cfg0.N) (k : Fin 128) (q : Fin 128) :
    iblk m c 3 t (ix2 k q) = Mlp.rd (V m c main_arg3 : S128x128.Idx → EReal) k.val q.val := by
  obtain ⟨-, -, -, -, -, -, e0, e1, -⟩ := idx_facts t
  show (V m c main_arg3 : S128x128.Idx → EReal) (((cfg0.win 3).blk t).view.emb (ix2 k q)) = _
  refine Mlp.eq_rd _ _ _ _ ?_ ?_
  · show k.val = win0_3.index t (0 : Fin 2) * 128 + 1 * k.val; omega
  · show q.val = win0_3.index t (1 : Fin 2) * 128 + 1 * q.val; omega

theorem iblk4 (c : Dev nD) (t : Fin cfg0.N) (q : Fin 128) :
    iblk m c 4 t (ix2 (0 : Fin 1) q) = Mlp.rd (V m c main_arg4 : S1x128.Idx → EReal) 0 q.val := by
  obtain ⟨-, -, -, -, -, -, -, -, e0, e1, -⟩ := idx_facts t
  show (V m c main_arg4 : S1x128.Idx → EReal) (((cfg0.win 4).blk t).view.emb (ix2 (0 : Fin 1) q)) = _
  refine Mlp.eq_rd _ _ _ _ ?_ ?_
  · show 0 = win0_4.index t (0 : Fin 2) * 1 + 1 * 0; omega
  · show q.val = win0_4.index t (1 : Fin 2) * 128 + 1 * q.val; omega

/-- What point `t` writes back is its tile of `full` of the arguments. -/
theorem flushed_eq (c : Dev nD) (t : Fin cfg0.N) :
    (dats m 0 c).flushed 5 t = ((cfg0.win 5).blk t).view.read (Elt Ideal)
      (full (V m c main_arg0) (V m c main_arg1) (V m c main_arg2) (V m c main_arg3) (V m c main_arg4)) := by
  show (cfg0.win 5).cut (grid0.coords t) ((dats m 0 c).after 5 t) = _
  rw [after0_5]
  unfold out0_5
  rw [View.canon_unit_zero hz]
  simp only [View.ld_unit_zero (S := S1024x16) hz, View.ld_unit_zero (S := S16x128) hz, View.ld_unit_zero (S := S1x128) hz,
    View.ld_unit_zero (S := S128x128) hz]
  funext j
  obtain ⟨p, q, rfl⟩ : ∃ (p : Fin 1024) (q : Fin 128), j = ix2 p q := ⟨j 0, j 1, eq_ix2 j⟩
  obtain ⟨-, -, -, -, -, -, -, -, -, -, e0, e1⟩ := idx_facts t
  refine (Body.pay_apply (iblk m c 0 t) (iblk m c 1 t) (iblk m c 2 t) (iblk m c 3 t) (iblk m c 4 t) p q).trans ?_
  show _ = Mlp.logit _ _ _ _ _ (win0_5.index t (0 : Fin 2) * 1024 + 1 * p.val) (win0_5.index t (1 : Fin 2) * 128 + 1 * q.val)
  rw [show win0_5.index t (0 : Fin 2) * 1024 + 1 * p.val = t.val * 1024 + p.val by omega,
    show win0_5.index t (1 : Fin 2) * 128 + 1 * q.val = q.val by omega]
  unfold Mlp.logit Mlp.hidden
  simp only [iblk0, iblk1, iblk2, iblk3, iblk4]

/-- An index of the array is in point `t`'s tile iff each coordinate is in the tile's range. -/
theorem mem_blk (t : Fin cfg0.N) (i : S524288x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v0).slice (win0_5.rect t)).set ↔ _
  rw [View.set_slice_whole, Rect.mem_set_unit]
  exact Iff.rfl

/-- Every index is in the tile of the point its row falls in. -/
theorem cover (i : S524288x128.Idx) : ∃ t : Fin cfg0.N, (cfg0.win 5).flush t = true ∧ i ∈ ((cfg0.win 5).blk t).view.set := by
  have hi0 : (i 0).val < 524288 := (i 0).isLt
  have hi1 : (i 1).val < 128 := (i 1).isLt
  have hN : cfg0.N = 512 := by decide
  let t : Fin cfg0.N := ⟨(i 0).val / 1024, by rw [hN]; omega⟩
  obtain ⟨-, -, -, -, -, -, -, -, -, -, e0, e1⟩ := idx_facts t
  have ht : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The array after the run is `full` of the arguments. -/
theorem final (c : Dev nD) : (dats m 0 c).arrAt 5 cfg0.N
    = full (V m c main_arg0) (V m c main_arg1) (V m c main_arg2) (V m c main_arg3) (V m c main_arg4) :=
  (dats m 0 c).arrAt_eq_of_cover 5 _ (fun t _ => flushed_eq m c t) cover

/-- The program's result, the first four columns of the array the region leaves, is `Mlp.G` of the arguments. -/
theorem result (c : Dev nD) : Pipeline.afterTail₀ cfgs (dats m) 0 (V0 m) [hostOps1] c main_v1
    = Mlp.G (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 5).trans (final m c)
  show extractStridedSlice S524288x4 ![0, 0]
    (Pipeline.withArrays spec0 c (V0 m c) (fun w => (dats m 0 c).arrAt w cfg0.N) (Proc.devRef .tc (Pipeline.arrRef spec0 5))) _ = _
  rw [e]
  funext i
  have hi1 : (i 1).val < 4 := (i 1).isLt
  refine (extractStridedSlice_apply ![0, 0] _ slices_S524288x128_S524288x4_0_0 i (ix2 (i 0) ⟨(i 1).val, by omega⟩) fun a => ?_).trans ?_
  · match a with
    | ⟨0, _⟩ => show (i 0).val = 0 + (i 0).val; omega
    | ⟨1, _⟩ => show (i 1).val = 0 + (i 1).val; omega
  · rfl

/-- The run with its result named: every weakly fair execution ends with the result at `Mlp.G` of the arguments and the
    arguments unchanged. -/
theorem run : θ_run defs (onTc (τ := τ) (main (F := Ideal))) ⟨m, fun _ => 0, ρ⟩ fun r => ∀ c : Dev nD,
      r.2.mem ((c : Thread nD τ).loc main_v1)
        = Mlp.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v1 (Pipeline.mem_restRefs_of main_v1 (by decide) (by decide))).trans (result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.RefValue

end
-- ==== Proof.lean ====
/-
  The proof of `Cert.Claim`: the packed kernel and the tiled reference compute the same two-layer perceptron.

  Both programs are one kernel region between host operations, and each one's frame — every weakly fair execution
  terminates, nothing faults, the argument arrays end unchanged — is the generated frame of its region. The ideal pass
  rewrote nothing, so the idealized kernel is the kernel's own text and `preserves` has nothing to state.

  For `algebraic`, read at the exact extended reals: the reference's result at batch row `b`, column `j` is
    Σ_k relu(Σ_a x[b, a] · w1[a, k] + b1[0, k]) · w2[k, j] + b2[0, j]           (`Mlp.G`, Proof/Spec.lean),
  tile by tile (Proof/RefBody.lean, Proof/RefValue.lean). The kernel packs eight batch rows into one row of 128
  lanes and multiplies by the Kronecker products of the 8 × 8 identity with the weights (Proof/KerArrays.lean,
  Proof/KerKron.lean, Proof/KerBody.lean); every term of its sums outside the diagonal block has a zero factor, so
  each sum is the sum over its block (Proof/Spec.lean `sum_blockdiag`, Proof/Packed.lean), and unpacking the result
  gives the same `Mlp.G` (Proof/KerValue.lean). Only that zero times anything is zero and that finite sums may be
  regrouped is used, so the finiteness of the inputs is never opened.
-/
import proofs.«141977_g2000704750272886_pallasbulk_1114_4_alg».proof.Defs
import proofs.«141977_g2000704750272886_pallasbulk_1114_4_alg».proof.Proof.Gen.Kernel
import proofs.«141977_g2000704750272886_pallasbulk_1114_4_alg».proof.Proof.Gen.Kernel.Frame
import proofs.«141977_g2000704750272886_pallasbulk_1114_4_alg».proof.Proof.Gen.KernelIdeal
import proofs.«141977_g2000704750272886_pallasbulk_1114_4_alg».proof.Proof.Gen.KernelIdeal.Frame
import proofs.«141977_g2000704750272886_pallasbulk_1114_4_alg».proof.Proof.Gen.ReferenceIdeal
import proofs.«141977_g2000704750272886_pallasbulk_1114_4_alg».proof.Proof.Gen.ReferenceIdeal.Frame
import proofs.«141977_g2000704750272886_pallasbulk_1114_4_alg».proof.Proof.Gen.Pre_finite_inputs
import proofs.«141977_g2000704750272886_pallasbulk_1114_4_alg».proof.Proof.KerValue
import proofs.«141977_g2000704750272886_pallasbulk_1114_4_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both runs end with the result at `Mlp.G` of their arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
